-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 39
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatmulNT.lean ====
/-
  A matrix product whose right operand is contracted on its LAST axis, read at an index: for the dimension
  numbers that contract the left operand's second axis with the right operand's second (rows × inner times
  columns × inner, no batch axis — the product of a matrix with the transpose of another, the transpose never
  formed), a product into the zero accumulator is, at `(i, j)`, the sum over the inner coordinate `k` of
  `lhs (i, k) · rhs (j, k)`.
-/
import Idealize.ShloMosaic.PureOps.Ideal.Laws
import Idealize.ShloMosaic.Lib.ValueIdx

noncomputable section

namespace Idealize.ShloMosaic.ValueIdx

/-- The product with a right operand contracted on its last axis, into the zero accumulator, at `(i, j)`, as a sum
    over the inner coordinate. -/
theorem matmul_transposedRhs_zero_apply (M K N : ℕ) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact hk)
  rw [el, er]

end Idealize.ShloMosaic.ValueIdx

end
-- ==== Proof.Spec.lean ====
/-
  The layer as one function of its arrays.  With `x` the node features and `nb` the averaged neighbour features
  (both 50000 × 128), two square weight matrices `ws`, `wn` (128 × 128, applied transposed: output feature `j`
  is the dot product of a feature row with ROW `j` of the weight) and two bias vectors `bs`, `bn`, the entry at
  row `r`, feature `j` is

      max ((⟨x r, ws j⟩ + bs j) + (⟨nb r, wn j⟩ + bn j)) 0.

  A program that forms `((⟨x r, ws j⟩ + bs j) + ⟨nb r, wn j⟩) + bn j` instead differs only in where the brackets
  of a sum of four terms stand; addition on the extended reals is associative everywhere (`⊥` absorbs), so no
  finiteness of the inputs is used.
-/
import Idealize.ShloMosaic.PureOps.Ideal.Laws
import Idealize.ShloMosaic.Lib.ValueIdx

noncomputable section

namespace Cert.DualAffine

open Idealize.ShloMosaic Idealize.ShloMosaic.ValueIdx

/-- A feature matrix: 50000 rows of 128 features. -/
abbrev Rows : Shape := ⟨2, ![50000, 128]⟩
/-- A weight matrix: 128 output features by 128 input features. -/
abbrev Wt : Shape := ⟨2, ![128, 128]⟩
/-- A bias vector: one entry per output feature. -/
abbrev Bias : Shape := ⟨1, ![128]⟩

/-- Row `r` of `a` dotted with row `j` of `w`: entry `(r, j)` of `a · wᵀ`. -/
def rowDot (a : Rows.Idx → EReal) (w : Wt.Idx → EReal) (r : Fin 50000) (j : Fin 128) : EReal :=
  ∑ k : Fin 128, a (ix2 r k) * w (ix2 j k)

/-- The layer's result, entry by entry: the two affine maps added, then clipped below at zero (the zero kept as
    the bit pattern both programs write, so it is never evaluated). -/
def G (x nb : Rows.Idx → EReal) (ws : Wt.Idx → EReal) (bs : Bias.Idx → EReal) (wn : Wt.Idx → EReal)
    (bn : Bias.Idx → EReal) : Rows.Idx → EReal :=
  fun i => max ((rowDot x ws (i 0) (i 1) + bs (ix1 (i 1))) + (rowDot nb wn (i 0) (i 1) + bn (ix1 (i 1))))
    (Ideal.ofBits .f32 0x00000000#32)

/-- Adding the second bias last, or to the second product first, is the same sum: associativity of `+`. -/
theorem regroup (a b c d z : EReal) : max (((a + b) + c) + d) z = max ((a + b) + (c + d)) z := by
  rw [add_assoc (a + b) c d]

end Cert.DualAffine

end
-- ==== Proof.Payload.lean ====
/-
  What the body stores, entry by entry.  At one grid point the body holds a block of 2000 feature rows `x`, the
  matching 2000 rows `nb` of averaged neighbour features, both weight matrices whole and both biases as a single
  row.  It narrows the four matrices (a change of float format: the identity on the extended reals), forms the two
  products with the weights contracted on their LAST axis into a zero accumulator, adds each bias row stretched
  over the 2000 rows, adds the two results and clips at zero.  So entry `(p, q)` of what it stores is

      max ((∑ k, x (p, k) · ws (q, k) + bs (0, q)) + (∑ k, nb (p, k) · wn (q, k) + bn (0, q))) 0.
-/
import proofs.«138493_j49916109914435_1_alg».proof.Proof.Gen.KernelIdeal.Skeleton
import proofs.«138493_j49916109914435_1_alg».proof.Proof.LibMatmulNT
import proofs.«138493_j49916109914435_1_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx

/-- A 2000 × 128 block times the transpose of a 128 × 128 matrix, into the zero accumulator, at `(p, q)`: row `p` of
    the block dotted with row `q` of the matrix. -/
theorem blockDot_apply (a : FVec Ideal S2000x128 .bf16) (w : FVec Ideal S128x128 .bf16) (p : Fin 2000) (q : Fin 128) :
    matmul dot_S2000x128_S128x128_S2000x128_1_1_0_0_n_n none a w (constant (F := Ideal) S2000x128 .f32 0x00000000#32) (ix2 p q)
      = ∑ k : Fin 128, a (ix2 p k) * w (ix2 q k) :=
  matmul_transposedRhs_zero_apply 2000 128 128 none a w p q

/-- A bias held as one row, stretched over the 2000 rows of a block, at `(p, q)`: the row's entry `q`. -/
theorem biasRow_apply (b : Vec Ideal S1x128 .f32) (p : Fin 2000) (q : Fin 128) :
    broadcastTo S2000x128 (shapeCast S1x128 b Facts₀.shapeCasts_S1x128_S1x128) Facts₀.broadcasts_S1x128_S2000x128 (ix2 p q)
      = b (ix2 0 q) := by
  rw [shapeCast_self]
  exact broadcastTo_apply b Facts₀.broadcasts_S1x128_S2000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The stored value at `(p, q)`. -/
theorem stored_apply (x nb : Vec Ideal S2000x128 .f32) (ws wn : Vec Ideal S128x128 .f32) (bs bn : Vec Ideal S1x128 .f32)
    (p : Fin 2000) (q : Fin 128) :
    k0_pay1 (F := Ideal) x nb ws wn bs bn (ix2 p q)
      = max (((∑ k : Fin 128, x (ix2 p k) * ws (ix2 q k)) + bs (ix2 0 q))
          + ((∑ k : Fin 128, nb (ix2 p k) * wn (ix2 q k)) + bn (ix2 0 q))) (Ideal.ofBits .f32 0x00000000#32) := by
  unfold k0_pay1
  show max ((matmul dot_S2000x128_S128x128_S2000x128_1_1_0_0_n_n none (truncf .bf16 x Facts₀.bitsLt_bf16_f32) (truncf .bf16 ws Facts₀.bitsLt_bf16_f32)
          (constant (F := Ideal) S2000x128 .f32 0x00000000#32) (ix2 p q)
        + broadcastTo S2000x128 (shapeCast S1x128 bs Facts₀.shapeCasts_S1x128_S1x128) Facts₀.broadcasts_S1x128_S2000x128 (ix2 p q))
      + (matmul dot_S2000x128_S128x128_S2000x128_1_1_0_0_n_n none
          (truncf .bf16 (shapeCast S2000x128 nb Facts₀.shapeCasts_S2000x128_S2000x128) Facts₀.bitsLt_bf16_f32) (truncf .bf16 wn Facts₀.bitsLt_bf16_f32)
          (constant (F := Ideal) S2000x128 .f32 0x00000000#32) (ix2 p q)
        + broadcastTo S2000x128 (shapeCast S1x128 bn Facts₀.shapeCasts_S1x128_S1x128) Facts₀.broadcasts_S1x128_S2000x128 (ix2 p q)))
      (Ideal.ofBits .f32 0x00000000#32) = _
  rw [blockDot_apply, blockDot_apply, biasRow_apply, biasRow_apply, shapeCast_self]
  rfl

/-- The stored value is the layer's function.  If row `p` of the two row blocks holds row `r` of the whole feature
    arrays `X`, `NB` (the weights and the bias rows are held whole), entry `(p, q)` of what the body stores is the layer's
    entry `(r, q)`, each bias read off its single row. -/
theorem stored_eq_layer (x nb : Vec Ideal S2000x128 .f32) (ws wn : Vec Ideal S128x128 .f32) (bs bn : Vec Ideal S1x128 .f32)
    (X NB : Cert.DualAffine.Rows.Idx → EReal) (r : Fin 50000) (p : Fin 2000) (q : Fin 128)
    (hx : ∀ k : Fin 128, x (ix2 p k) = X (ix2 r k)) (hnb : ∀ k : Fin 128, nb (ix2 p k) = NB (ix2 r k)) :
    k0_pay1 (F := Ideal) x nb ws wn bs bn (ix2 p q)
      = Cert.DualAffine.G X NB ws (fun j => bs (ix2 0 (j 0))) wn (fun j => bn (ix2 0 (j 0))) (ix2 r q) := by
  rw [stored_apply]
  simp only [hx, hnb]
  rfl

end Cert.KernelIdeal.Body

end
-- ==== Proof.Blocks.lean ====
/-
  From the 25 blocks to the whole array.  Grid point `t` handles rows `2000 t … 2000 t + 1999`: it is handed those
  rows of the node features and of the averaged neighbour features, both weight matrices and both bias rows whole,
  and writes back those rows of the result.  What it writes is the layer's function `G` of the arrays the region
  finds, read through the point's block; the 25 blocks cover all 50000 rows (row `r` lies in block `r / 2000`); so
  after the run the result array is `G` of those arrays.
-/
import proofs.«138493_j49916109914435_1_alg».proof.Proof.Gen.KernelIdeal.Value
import proofs.«138493_j49916109914435_1_alg».proof.Proof.Payload
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zeroOff : (![0, 0] : Fin 2 → Nat) = fun _ => 0 := funext fun a => by fin_cases a <;> rfl

/-- The printed index maps over the 25 grid points: the two row windows and the result window sit at block `t` of
    the row axis and block 0 of the feature axis; the weights and the bias rows stay at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 25 :=
  lt_of_lt_of_eq t.isLt (show cfg0.N = 25 from N_0)

/-! ## Each window's block at a point, read off the array the region finds -/

/-- Row `p` of the node-feature block at point `t` is row `2000 t + p` of the node features. -/
theorem rows_x (c : Dev nD) (t : Fin cfg0.N) (p : Fin 2000) (k : Fin 128) (r : Fin 50000) (hr : r.val = 2000 * t.val + p.val) :
    (iblk m c 0 t : Vec Ideal S2000x128 .f32) (ix2 p k) = (V m c main_arg0 : S50000x128.Idx → EReal) (ix2 r k) := by
  obtain ⟨e0, e1, -⟩ := blockIndex t
  unfold iblk
  rw [View.read_apply]
  show V m c main_arg0 (((cfg0.win 0).blk t).view.emb (ix2 p k)) = V m c main_arg0 (ix2 r k)
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 128 + 1 * k.val = k.val; omega
  rw [h]

/-- Any array of the feature-matrix shape, read through the second window's block at point `t`: row `p` of the
    block is row `2000 t + p` of the array.  A fact about where the block sits, whatever the array holds. -/
theorem rows_of_second (X : S50000x128.Idx → EReal) (t : Fin cfg0.N) (p : Fin 2000) (k : Fin 128) (r : Fin 50000)
    (hr : r.val = 2000 * t.val + p.val) :
    ((cfg0.win 1).blk t).view.read (Elt Ideal) X (ix2 p k) = X (ix2 r k) := by
  obtain ⟨-, -, e0, e1, -⟩ := blockIndex t
  have h : ((cfg0.win 1).blk t).view.emb (ix2 p k) = (ix2 r k : S50000x128.Idx) := by
    funext a; apply Fin.ext
    match a with
    | ⟨0, _⟩ => show win0_1.index t (0 : Fin 2) * 2000 + 1 * p.val = r.val; omega
    | ⟨1, _⟩ => show win0_1.index t (1 : Fin 2) * 128 + 1 * k.val = k.val; omega
  rw [View.read_apply]
  exact congrArg X h

/-- Row `p` of the neighbour-feature block at point `t` is row `2000 t + p` of the averaged neighbour features, the
    array behind the second window (named by that window's own array reference). -/
theorem rows_nb (c : Dev nD) (t : Fin cfg0.N) (p : Fin 2000) (k : Fin 128) (r : Fin 50000) (hr : r.val = 2000 * t.val + p.val) :
    (iblk m c 1 t : Vec Ideal S2000x128 .f32) (ix2 p k) = (V m c (Pipeline.arrRef spec0 1) : S50000x128.Idx → EReal) (ix2 r k) :=
  rows_of_second (V m c (Pipeline.arrRef spec0 1)) t p k r hr

/-- The first weight's block is the whole matrix, at every point. -/
theorem whole_ws (c : Dev nD) (t : Fin cfg0.N) :
    (iblk m c 2 t : Vec Ideal S128x128 .f32) = (V m c main_arg2 : S128x128.Idx → EReal) := by
  obtain ⟨-, -, -, -, e0, e1, -⟩ := blockIndex t
  funext y
  unfold iblk
  rw [View.read_apply]
  show V m c main_arg2 (((cfg0.win 2).blk t).view.emb y) = V m c main_arg2 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- The second weight's block is the whole matrix, at every point. -/
theorem whole_wn (c : Dev nD) (t : Fin cfg0.N) :
    (iblk m c 4 t : Vec Ideal S128x128 .f32) = (V m c main_arg4 : S128x128.Idx → EReal) := by
  obtain ⟨-, -, -, -, -, -, -, -, e0, e1, -⟩ := blockIndex t
  funext y
  unfold iblk
  rw [View.read_apply]
  show V m c main_arg4 (((cfg0.win 4).blk t).view.emb y) = V m c main_arg4 y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  rw [h]

/-- The first bias row's block is the whole row, at every point. -/
theorem whole_bs (c : Dev nD) (t : Fin cfg0.N) :
    (iblk m c 3 t : Vec Ideal S1x128 .f32) = (V m c main_v22 : S1x128.Idx → EReal) := by
  obtain ⟨-, -, -, -, -, -, e0, e1, -⟩ := blockIndex t
  funext y
  unfold iblk
  rw [View.read_apply]
  show V m c main_v22 (((cfg0.win 3).blk t).view.emb y) = V m c main_v22 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [h]

/-- The second bias row's block is the whole row, at every point. -/
theorem whole_bn (c : Dev nD) (t : Fin cfg0.N) :
    (iblk m c 5 t : Vec Ideal S1x128 .f32) = (V m c main_v23 : S1x128.Idx → EReal) := by
  obtain ⟨-, -, -, -, -, -, -, -, -, -, e0, e1, -⟩ := blockIndex t
  funext y
  unfold iblk
  rw [View.read_apply]
  show V m c main_v23 (((cfg0.win 5).blk t).view.emb y) = V m c main_v23 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [h]

/-- Entry `(p, q)` of the result's block at point `t` sits at `(2000 t + p, q)` of the result array. -/
theorem out_at (t : Fin cfg0.N) (p : Fin 2000) (q : Fin 128) (r : Fin 50000) (hr : r.val = 2000 * t.val + p.val) :
    ((cfg0.win 6).blk t).view.emb (ix2 p q) = (ix2 r q : S50000x128.Idx) := by
  obtain ⟨-, -, -, -, -, -, -, -, -, -, -, -, e0, e1⟩ := blockIndex t
  funext a; apply Fin.ext
  match a with
  | ⟨0, _⟩ => show win0_6.index t (0 : Fin 2) * 2000 + 1 * p.val = r.val; omega
  | ⟨1, _⟩ => show win0_6.index t (1 : Fin 2) * 128 + 1 * q.val = q.val; omega

/-! ## The result array -/

/-- The layer's function of the arrays as the region finds them, each bias read off its single row (the neighbour
    features under the window's own name for their array). -/
def result (c : Dev nD) : S50000x128.Idx → EReal :=
  Cert.DualAffine.G (V m c main_arg0) (V m c (Pipeline.arrRef spec0 1)) (V m c main_arg2) (fun j => (V m c main_v22 : S1x128.Idx → EReal) (ix2 0 (j 0)))
    (V m c main_arg4) (fun j => (V m c main_v23 : S1x128.Idx → EReal) (ix2 0 (j 0)))

/-- What point `t` writes back is block `t` of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero zeroOff]
  simp only [View.ld_unit_zero (S := S2000x128) zeroOff, View.ld_unit_zero (S := S128x128) zeroOff, View.ld_unit_zero (S := S1x128) zeroOff]
  rw [whole_ws m c t, whole_wn m c t, whole_bs m c t, whole_bn m c t]
  funext j
  obtain ⟨p, q, rfl⟩ : ∃ (p : Fin 2000) (q : Fin 128), j = ix2 p q := ⟨j 0, j 1, eq_ix2 j⟩
  have hrow : 2000 * t.val + p.val < 50000 := by have := point_lt t; have := p.isLt; omega
  rw [View.read_apply, out_at t p q ⟨2000 * t.val + p.val, hrow⟩ rfl]
  exact Cert.KernelIdeal.Body.stored_eq_layer (iblk m c 0 t) (iblk m c 1 t) (V m c main_arg2) (V m c main_arg4) (V m c main_v22) (V m c main_v23)
    (V m c main_arg0) (V m c (Pipeline.arrRef spec0 1)) ⟨2000 * t.val + p.val, hrow⟩ p q
    (fun k => rows_x m c t p k _ rfl) (fun k => rows_nb m c t p k _ rfl)

/-- An index of the result array is in point `t`'s block iff each coordinate is in the block's range on its axis. -/
theorem mem_block (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- Every index of the result array is in some point's block: row `r` is in block `r / 2000`. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_6 _, ?_⟩
  obtain ⟨-, -, -, -, -, -, -, -, -, -, -, -, e0, e1⟩ := blockIndex ⟨(i 0).val / 2000, by rw [hN]; omega⟩
  rw [mem_block]
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, _⟩ (1 : Fin 2) * 128 ≤ (i 1).val ∧ (i 1).val < win0_6.index ⟨(i 0).val / 2000, _⟩ (1 : Fin 2) * 128 + 128
    rw [e1]; omega

/-- After the run the result array holds `result`. -/
theorem final (c : Dev nD) : (dats m 0 c).arrAt 6 cfg0.N = result m c :=
  (dats m 0 c).arrAt_eq_of_cover 6 (result m c) (fun t _ => flushed_eq m c t) covered

/-- The run, read: the result array at the layer's function of the arrays the region finds, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.Windows.lean ====
/-
  What the region finds in the three arrays the host computes before it.  The averaged neighbour features are
  produced by the same chain of host operations in both programs (the source and destination rows of the edge list,
  negative indices wrapped, a gather of source rows, a scatter-add onto destinations, the destination counts
  clamped below at one, the quotient): the array the region reads is that chain's value of the two arguments it
  depends on, and the chain is never opened here.  Each bias reaches the region recast from a vector of 128 entries
  to a single row; read at `(0, q)` that row is the vector's entry `q`.
-/
import proofs.«138493_j49916109914435_1_alg».proof.Proof.Gen.KernelIdeal.Frame
import proofs.«138493_j49916109914435_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

set_option maxHeartbeats 400000 in
/-- The first bias as the region finds it: the argument vector recast to one row. -/
theorem biasS_eq (c : Dev nD) :
    (V m c main_v22 : S1x128.Idx → Elt F .f32)
      = shapeCast S1x128 (m ((c : Thread nD τ).loc main_arg3)) Facts₀.shapeCasts_S128_S1x128 := by
  dsimp only [V]
  simp only [hostOps0, hostOps0_1, hostOps0_2, List.flatten_cons, List.flatten_nil, List.append_nil, List.cons_append,
    List.nil_append]
  after_results
  rfl

set_option maxHeartbeats 400000 in
/-- The second bias as the region finds it: the argument vector recast to one row. -/
theorem biasN_eq (c : Dev nD) :
    (V m c main_v23 : S1x128.Idx → Elt F .f32)
      = shapeCast S1x128 (m ((c : Thread nD τ).loc main_arg5)) Facts₀.shapeCasts_S128_S1x128 := by
  dsimp only [V]
  simp only [hostOps0, hostOps0_1, hostOps0_2, List.flatten_cons, List.flatten_nil, List.append_nil, List.cons_append,
    List.nil_append]
  after_results
  rfl

/-- A vector of 128 entries recast to one row, read back along that row, is the vector. -/
theorem row_of_vector {α : Type} (b : S128.Idx → α) :
    (fun j : S128.Idx => shapeCast S1x128 b Facts₀.shapeCasts_S128_S1x128 (ix2 0 (j 0))) = b := by
  funext j
  refine (shapeCast_addUnit_apply ![128] b Facts₀.shapeCasts_S128_S1x128 (ix2 0 (j 0))).trans (congrArg b ?_)
  funext a
  match a with
  | ⟨0, _⟩ => rfl

set_option maxHeartbeats 1000000 in
/-- The averaged neighbour features as the region finds them: the shared host chain's value of the node features
    and the edge list, the same value the reference program divides out before its second product. -/
theorem neigh_eq (c : Dev nD) :
    (V m c main_v21 : S50000x128.Idx → Elt F .f32)
      = Cert.ReferenceIdeal.Read.val_main_v21 (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results
  rfl

/-- The same at any reference equal to that array's. -/
theorem neigh_at (c : Dev nD) (b : Ref sig .tc) (h : b = main_v21) :
    HEq (V m c b) (Cert.ReferenceIdeal.Read.val_main_v21 (F := F) (m ((c : Thread nD τ).loc main_arg0)) (m ((c : Thread nD τ).loc main_arg1))) := by
  subst h
  exact heq_of_eq (neigh_eq m c)

/-- The array the second window stages is the averaged neighbour features. -/
theorem neighArr_eq (c : Dev nD) :
    (V m c (Pipeline.arrRef spec0 1) : S50000x128.Idx → Elt F .f32)
      = Cert.ReferenceIdeal.Read.val_main_v21 (F := F) (m ((c : Thread nD τ).loc main_arg0)) (m ((c : Thread nD τ).loc main_arg1)) :=
  eq_of_heq (neigh_at m c (Pipeline.arrRef spec0 1) rfl)

end Cert.KernelIdeal.Entry

end
-- ==== Proof.RefLayer.lean ====
/-
  The reference program's result is the layer's function.  Past the shared host chain that produces the averaged
  neighbour features `nb`, the reference transposes each weight and multiplies (entry `(r, q)` of `x · wsᵀ` is row
  `r` of `x` dotted with row `q` of `ws`), stretches each bias over the rows, and adds in the order
  `((x·wsᵀ + bs) + nb·wnᵀ) + bn` before clipping at zero.  Entry by entry that is the layer's
  `(x·wsᵀ + bs) + (nb·wnᵀ + bn)` with the brackets of the sum moved.
-/
import proofs.«138493_j49916109914435_1_alg».proof.Proof.Gen.ReferenceIdeal.Read
import proofs.«138493_j49916109914435_1_alg».proof.Proof.Spec

noncomputable section

namespace Cert.ReferenceIdeal.Layer

open Cert.ReferenceIdeal Cert.ReferenceIdeal.Read Idealize.ShloMosaic Idealize.ShloMosaic.ValueIdx

/-- The reference's result stage is the layer's function of the arguments and of the averaged neighbour features. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v33 (F := Ideal) x0 x1 x2 x3 x4 x5
      = Cert.DualAffine.G x0 (val_main_v21 (F := Ideal) x0 x1) x2 x3 x4 x5 := by
  funext i
  obtain ⟨r, q, rfl⟩ : ∃ (r : Fin 50000) (q : Fin 128), i = ix2 r q := ⟨i 0, i 1, eq_ix2 i⟩
  have hxs : ∀ k : Fin 128, lidx_main_v23 (ix2 r q) k = ix2 r k := fun k =>
    funext fun a => Fin.ext (by match a with | ⟨0, _⟩ => rfl | ⟨1, _⟩ => rfl)
  have hws : ∀ k : Fin 128, idx_main_v22 (ridx_main_v23 (ix2 r q) k) = ix2 q k := fun k =>
    funext fun a => Fin.ext (by match a with | ⟨0, _⟩ => rfl | ⟨1, _⟩ => rfl)
  have hnb : ∀ k : Fin 128, lidx_main_v28 (ix2 r q) k = ix2 r k := fun k =>
    funext fun a => Fin.ext (by match a with | ⟨0, _⟩ => rfl | ⟨1, _⟩ => rfl)
  have hwn : ∀ k : Fin 128, idx_main_v27 (ridx_main_v28 (ix2 r q) k) = ix2 q k := fun k =>
    funext fun a => Fin.ext (by match a with | ⟨0, _⟩ => rfl | ⟨1, _⟩ => rfl)
  have hbs : idx_main_v24 (idx_main_v25 (ix2 r q)) = ix1 q :=
    funext fun a => Fin.ext (by match a with | ⟨0, _⟩ => rfl)
  have hbn : idx_main_v30 (idx_main_v31 (ix2 r q)) = ix1 q :=
    funext fun a => Fin.ext (by match a with | ⟨0, _⟩ => rfl)
  rw [val_main_v33_apply, val_main_v32_apply, val_main_v29_apply, val_main_v26_apply, val_main_v23_apply, val_main_v28_apply,
    val_main_v25_apply, val_main_v24_apply, val_main_v31_apply, val_main_v30_apply, val_main_call1_v0_apply, val_main_call1_cst_apply]
  simp only [val_main_v22_apply, val_main_v27_apply, hxs, hws, hnb, hwn, hbs, hbn]
  show max ((((∑ k : Fin 128, x0 (ix2 r k) * x2 (ix2 q k)) + x3 (ix1 q))
      + (∑ k : Fin 128, val_main_v21 (F := Ideal) x0 x1 (ix2 r k) * x4 (ix2 q k))) + x5 (ix1 q)) (Ideal.ofBits .f32 0x00000000#32) = _
  rw [Cert.DualAffine.regroup]
  rfl

end Cert.ReferenceIdeal.Layer

end
-- ==== Proof.lean ====
/-
  The claim: both printed kernels and the reference run to the end leaving their arguments as they were; the
  idealized kernel is the printed kernel's text read over the extended reals (the idealization rewrote nothing);
  and the idealized kernel and the idealized reference, started from memories that agree on the six arguments, end
  with the same result array.

  The layer computes, for node features `x`, the edge list, weights `ws`, `wn` and biases `bs`, `bn`,

      max ((x · wsᵀ + bs) + (nb · wnᵀ + bn)) 0,      nb = the neighbours' features averaged over incoming edges.

  Both programs obtain `nb` by the same host operations, so it is carried as one unopened function of `x` and the
  edge list.  The kernel then works on 25 blocks of 2000 rows and adds the two affine maps as written above; the
  reference works on whole arrays and adds the second bias last.  Entry by entry the two differ in the bracketing
  of a sum of four extended reals, which is immaterial, so the precondition (finite inputs) is never opened.
-/
import proofs.«138493_j49916109914435_1_alg».proof.Defs
import proofs.«138493_j49916109914435_1_alg».proof.Proof.Gen.Kernel
import proofs.«138493_j49916109914435_1_alg».proof.Proof.Gen.Kernel.Skeleton
import proofs.«138493_j49916109914435_1_alg».proof.Proof.Gen.Kernel.Launch
import proofs.«138493_j49916109914435_1_alg».proof.Proof.Gen.Kernel.Points
import proofs.«138493_j49916109914435_1_alg».proof.Proof.Gen.Kernel.Frame
import proofs.«138493_j49916109914435_1_alg».proof.Proof.Gen.KernelIdeal
import proofs.«138493_j49916109914435_1_alg».proof.Proof.Gen.KernelIdeal.Skeleton
import proofs.«138493_j49916109914435_1_alg».proof.Proof.Gen.KernelIdeal.Launch
import proofs.«138493_j49916109914435_1_alg».proof.Proof.Gen.KernelIdeal.Points
import proofs.«138493_j49916109914435_1_alg».proof.Proof.Gen.KernelIdeal.Frame
import proofs.«138493_j49916109914435_1_alg».proof.Proof.Gen.ReferenceIdeal
import proofs.«138493_j49916109914435_1_alg».proof.Proof.Gen.Pre_finite_inputs
import proofs.«138493_j49916109914435_1_alg».proof.Proof.Gen.KernelIdeal.Value
import proofs.«138493_j49916109914435_1_alg».proof.Proof.Gen.ReferenceIdeal.Run
import proofs.«138493_j49916109914435_1_alg».proof.Proof.Gen.ReferenceIdeal.Read
import proofs.«138493_j49916109914435_1_alg».proof.Proof.Blocks
import proofs.«138493_j49916109914435_1_alg».proof.Proof.Windows
import proofs.«138493_j49916109914435_1_alg».proof.Proof.RefLayer
import Idealize.ShloMosaic.Adequacy
import Idealize.ShloMosaic.Init

noncomputable section

namespace Cert.Proof

open Idealize.ShloMosaic Idealize.ShloMosaic.TcCoe Idealize.SL.Sem

/-! ## The kernel's result as a function of the arguments -/

section KernelResult

open Cert.KernelIdeal Cert.KernelIdeal.Gen

/-- The array the kernel leaves is the layer's function of the launch contents of the arguments: the arrays the
    region finds are the arguments themselves, the shared host chain's neighbour average, and each bias recast to
    a row, which read along the row is the bias again. -/
theorem kernel_result (m : (ℓ : Loc nD τ sig) → Buf (Elt Ideal) ℓ) (c : Dev nD) :
    Cert.KernelIdeal.Whole.result m c
      = Cert.DualAffine.G (m ((c : Thread nD τ).loc main_arg0))
          (Cert.ReferenceIdeal.Read.val_main_v21 (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Cert.KernelIdeal.Whole.result
  rw [Cert.KernelIdeal.Entry.neighArr_eq, Cert.KernelIdeal.Entry.biasS_eq, Cert.KernelIdeal.Entry.biasN_eq,
    V_main_arg0, V_main_arg2, V_main_arg4]
  show Cert.DualAffine.G _ _ _
      (fun j : S128.Idx => shapeCast S1x128 (m ((c : Thread nD τ).loc main_arg3)) Facts₀.shapeCasts_S128_S1x128 (ValueIdx.ix2 0 (j 0))) _
      (fun j : S128.Idx => shapeCast S1x128 (m ((c : Thread nD τ).loc main_arg5)) Facts₀.shapeCasts_S128_S1x128 (ValueIdx.ix2 0 (j 0))) = _
  rw [Cert.KernelIdeal.Entry.row_of_vector, Cert.KernelIdeal.Entry.row_of_vector]

end KernelResult

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the kernel's result array ends at the layer's function of its
    arguments, the reference's at its own result stage of the same arguments, and that stage is the layer's
    function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v33_eq, Cert.ReferenceIdeal.Layer.result_eq, h0, h1, h2, h3, h4, h5]
  exact (kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
